-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S8x1024 : Shape := ⟨2, ![8, 1024]⟩
abbrev S8x1024x3 : Shape := ⟨3, ![8, 1024, 3]⟩
abbrev S8x1x2048x3 : Shape := ⟨4, ![8, 1, 2048, 3]⟩
abbrev S8x1024x1x3 : Shape := ⟨4, ![8, 1024, 1, 3]⟩
abbrev S8x1024x2048x3 : Shape := ⟨4, ![8, 1024, 2048, 3]⟩
abbrev S_ : Shape := ⟨0, ![]⟩
abbrev S8x1024x2048 : Shape := ⟨3, ![8, 1024, 2048]⟩

class Facts : Prop where
  bcast_S8x2048x3_S8x1x2048x3_0_2_3 : S8x2048x3.BroadcastsInDim S8x1x2048x3 (![0, 2, 3] : Fin 3 → Fin S8x1x2048x3.rank)
  bcast_S8x1024x3_S8x1024x1x3_0_1_3 : S8x1024x3.BroadcastsInDim S8x1024x1x3 (![0, 1, 3] : Fin 3 → Fin S8x1024x1x3.rank)
  bcast_S8x1x2048x3_S8x1024x2048x3_0_1_2_3 : S8x1x2048x3.BroadcastsInDim S8x1024x2048x3 (![0, 1, 2, 3] : Fin 4 → Fin S8x1024x2048x3.rank)
  bcast_S8x1024x1x3_S8x1024x2048x3_0_1_2_3 : S8x1024x1x3.BroadcastsInDim S8x1024x2048x3 (![0, 1, 2, 3] : Fin 4 → Fin S8x1024x2048x3.rank)
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8x1024x3 : S_.BroadcastsInDim S8x1024x3 (![] : Fin 0 → Fin S8x1024x3.rank)
  reducesTo_S8x1024x3_S_d0_1_2 : S8x1024x3.ReducesTo [0, 1, 2] S_
  reducesTo_S8x1024x2048x3_S8x1024x2048_d3 : S8x1024x2048x3.ReducesTo [3] S8x1024x2048
  bcast_S_S8x1024x2048 : S_.BroadcastsInDim S8x1024x2048 (![] : Fin 0 → Fin S8x1024x2048.rank)
  reducesTo_S8x1024x2048_S_d0_1_2 : S8x1024x2048.ReducesTo [0, 1, 2] S_

variable [Facts]

def fn_part1 {F : FTy → Type} [FloatOps F] (main_v4 : FVec F S8x1024x2048x3 .f32) (main_v13 : IVec S_ 1) (main_v17 : IVec S_ 1) : IVec S_ 1 :=
  let main_v18 : IVec S_ 1 := andi main_v13 main_v17
  let main_v19 : FVec F S8x1024x2048x3 .f32 := mulf main_v4 main_v4
  let main_cst_4 : FVec F S_ .f32 := constant S_ .f32 0x00000000#32
  let main_v20 : FVec F S8x1024x2048 .f32 := (fun x v => Host.reduceAdd x v reducesTo_S8x1024x2048x3_S8x1024x2048_d3 h_S_) main_v19 main_cst_4
  let main_cst_5 : FVec F S_ .f32 := constant S_ .f32 0x00000000#32
  let main_v21 : FVec F S8x1024x2048 .f32 := broadcastInDim S8x1024x2048 ![] bcast_S_S8x1024x2048 main_cst_5
  let main_v22 : IVec S8x1024x2048 1 := cmpf .ogt main_v20 main_v21
  let main_c_6 : IVec S_ 1 := constantI S_ 1 1#1
  let main_v23 : IVec S_ 1 := (fun x v => Host.reduce IntOp.andi x v reducesTo_S8x1024x2048_S_d0_1_2 h_S_) main_v22 main_c_6
  let main_v24 : IVec S_ 1 := andi main_v18 main_v23
  main_v24

def fn {F : FTy → Type} [FloatOps F] (main_arg0 : FVec F S8x2048x3 .f32) (main_arg1 : FVec F S8x1024 .f32) (main_arg2 : FVec F S8x1024x3 .f32) : IVec S_ 1 :=
  let main_v0 : FVec F S8x1x2048x3 .f32 := broadcastInDim S8x1x2048x3 ![0, 2, 3] bcast_S8x2048x3_S8x1x2048x3_0_2_3 main_arg0
  let main_v1 : FVec F S8x1024x1x3 .f32 := broadcastInDim S8x1024x1x3 ![0, 1, 3] bcast_S8x1024x3_S8x1024x1x3_0_1_3 main_arg2
  let main_v2 : FVec F S8x1024x2048x3 .f32 := broadcastInDim S8x1024x2048x3 ![0, 1, 2, 3] bcast_S8x1x2048x3_S8x1024x2048x3_0_1_2_3 main_v0
  let main_v3 : FVec F S8x1024x2048x3 .f32 := broadcastInDim S8x1024x2048x3 ![0, 1, 2, 3] bcast_S8x1024x1x3_S8x1024x2048x3_0_1_2_3 main_v1
  let main_v4 : FVec F S8x1024x2048x3 .f32 := subf main_v2 main_v3
  let main_v5 : FVec F S8x2048x3 .f32 := Host.absf main_arg0
  let main_cst : FVec F S_ .f32 := constant S_ .f32 0x7F800000#32
  let main_v6 : FVec F S8x2048x3 .f32 := broadcastInDim S8x2048x3 ![] bcast_S_S8x2048x3 main_cst
  let main_v7 : IVec S8x2048x3 1 := cmpf .olt main_v5 main_v6
  let main_c : IVec S_ 1 := constantI S_ 1 1#1
  let main_v8 : IVec S_ 1 := (fun x v => Host.reduce IntOp.andi x v reducesTo_S8x2048x3_S_d0_1_2 h_S_) main_v7 main_c
  let main_v9 : FVec F S8x1024 .f32 := Host.absf main_arg1
  let main_cst_0 : FVec F S_ .f32 := constant S_ .f32 0x7F800000#32
  let main_v10 : FVec F S8x1024 .f32 := broadcastInDim S8x1024 ![] bcast_S_S8x1024 main_cst_0
  let main_v11 : IVec S8x1024 1 := cmpf .olt main_v9 main_v10
  let main_c_1 : IVec S_ 1 := constantI S_ 1 1#1
  let main_v12 : IVec S_ 1 := (fun x v => Host.reduce IntOp.andi x v reducesTo_S8x1024_S_d0_1 h_S_) main_v11 main_c_1
  let main_v13 : IVec S_ 1 := andi main_v8 main_v12
  let main_v14 : FVec F S8x1024x3 .f32 := Host.absf main_arg2
  let main_cst_2 : FVec F S_ .f32 := constant S_ .f32 0x7F800000#32
  let main_v15 : FVec F S8x1024x3 .f32 := broadcastInDim S8x1024x3 ![] bcast_S_S8x1024x3 main_cst_2
  let main_v16 : IVec S8x1024x3 1 := cmpf .olt main_v14 main_v15
  let main_c_3 : IVec S_ 1 := constantI S_ 1 1#1
  let main_v17 : IVec S_ 1 := (fun x v => Host.reduce IntOp.andi x v reducesTo_S8x1024x3_S_d0_1_2 h_S_) main_v16 main_c_3
  fn_part1 (F := F) main_v4 main_v13 main_v17
-- ==== Kernel.lean ====
abbrev S8x2048x3 : Shape := ⟨3, ![8, 2048, 3]⟩
abbrev S8x1024 : Shape := ⟨2, ![8, 1024]⟩
abbrev S8x1024x3 : Shape := ⟨3, ![8, 1024, 3]⟩
abbrev S8x3x2048 : Shape := ⟨3, ![8, 3, 2048]⟩
abbrev S8x1024x1 : Shape := ⟨3, ![8, 1024, 1]⟩
abbrev S1x3x512 : Shape := ⟨3, ![1, 3, 512]⟩
abbrev S1x1024x3 : Shape := ⟨3, ![1, 1024, 3]⟩
abbrev S1x1024x1 : Shape := ⟨3, ![1, 1024, 1]⟩
abbrev S1x1x512 : Shape := ⟨3, ![1, 1, 512]⟩
abbrev S1x512 : Shape := ⟨2, ![1, 512]⟩
abbrev S1024x1 : Shape := ⟨2, ![1024, 1]⟩
abbrev S1024x512 : Shape := ⟨2, ![1024, 512]⟩
abbrev S512 : Shape := ⟨1, ![512]⟩

abbrev nBuf : Space → Nat
  | .hbm => 7
  | .vmem => 8
  | .smem => 0
  | _ => 0

abbrev bufTy : (tb : Table) → Fin (tcTables nBuf tb) → BufTy
  | .hbm, ⟨0, _⟩ => ⟨S8x2048x3, .f32⟩
  | .hbm, ⟨1, _⟩ => ⟨S8x1024, .f32⟩
  | .hbm, ⟨2, _⟩ => ⟨S8x1024x3, .f32⟩
  | .hbm, ⟨3, _⟩ => ⟨S8x3x2048, .f32⟩
  | .hbm, ⟨4, _⟩ => ⟨S8x1024x1, .f32⟩
  | .hbm, ⟨5, _⟩ => ⟨S8x3x2048, .f32⟩
  | .hbm, ⟨6, _⟩ => ⟨S8x2048x3, .f32⟩
  | .local _ .vmem, ⟨0, _⟩ => ⟨S1x3x512, .f32⟩
  | .local _ .vmem, ⟨1, _⟩ => ⟨S1x3x512, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x1, .f32⟩
  | .local _ .vmem, ⟨5, _⟩ => ⟨S1x1024x1, .f32⟩
  | .local _ .vmem, ⟨6, _⟩ => ⟨S1x3x512, .f32⟩
  | .local _ .vmem, ⟨7, _⟩ => ⟨S1x3x512, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8x2048x3_S8x3x2048_0_2_1 : S8x2048x3.Transposes [0, 2, 1] S8x3x2048
  bcast_S8x1024_S8x1024x1_0_1 : S8x1024.BroadcastsInDim S8x1024x1 (![0, 1] : Fin 2 → Fin S8x1024x1.rank)
  inb_S1x3x512_S1x1x512_0_0_0 : ∀ a, (![0, 0, 0] : Fin 3 → Nat) a + S1x1x512.size a ≤ S1x3x512.size a
  h_S1x1x512 : 0 < S1x1x512.numel
  shapeCasts_S1x1x512_S1x512 : S1x1x512.ShapeCasts S1x512
  inb_S1x3x512_S1x1x512_0_1_0 : ∀ a, (![0, 1, 0] : Fin 3 → Nat) a + S1x1x512.size a ≤ S1x3x512.size a
  inb_S1x3x512_S1x1x512_0_2_0 : ∀ a, (![0, 2, 0] : Fin 3 → Nat) a + S1x1x512.size a ≤ S1x3x512.size a
  inb_S1x1024x3_S1x1024x1_0_0_0 : ∀ a, (![0, 0, 0] : Fin 3 → Nat) a + S1x1024x1.size a ≤ S1x1024x3.size a
  h_S1x1024x1 : 0 < S1x1024x1.numel
  shapeCasts_S1x1024x1_S1024x1 : S1x1024x1.ShapeCasts S1024x1
  inb_S1x1024x3_S1x1024x1_0_0_1 : ∀ a, (![0, 0, 1] : Fin 3 → Nat) a + S1x1024x1.size a ≤ S1x1024x3.size a
  inb_S1x1024x3_S1x1024x1_0_0_2 : ∀ a, (![0, 0, 2] : Fin 3 → Nat) a + S1x1024x1.size a ≤ S1x1024x3.size a
  inb_S1x1024x1_S1x1024x1_0_0_0 : ∀ a, (![0, 0, 0] : Fin 3 → Nat) a + S1x1024x1.size a ≤ S1x1024x1.size a
  broadcasts_S1x512_S1024x512 : S1x512.Broadcasts S1024x512
  broadcasts_S1024x1_S1024x512 : S1024x1.Broadcasts S1024x512
  reduces_S1024x512_S512 : S1024x512.Reduces [0] S512
  shapeCasts_S512_S1x512 : S512.ShapeCasts S1x512
  shapeCasts_S1x512_S1x1x512 : S1x512.ShapeCasts S1x1x512
  transposes_S8x3x2048_S8x2048x3_0_2_1 : S8x3x2048.Transposes [0, 2, 1] S8x2048x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S8x3x2048.size a
  hwx0_0 : ∀ i : grid0.Coords, EltTy.bits .f32 = 32 ∨ (Rect.block (s := S8x3x2048) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S8x1024x3.size a
  hwx0_1 : ∀ i : grid0.Coords, EltTy.bits .f32 = 32 ∨ (Rect.block (s := S8x1024x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x1024x1.size a
  hwx0_2 : ∀ i : grid0.Coords, EltTy.bits .f32 = 32 ∨ (Rect.block (s := S8x1024x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x512.size a ≤ S8x3x2048.size a
  hwx0_3 : ∀ i : grid0.Coords, EltTy.bits .f32 = 32 ∨ (Rect.block (s := S8x3x2048) S1x3x512.size (cc0_transform_3 i) (hinb0_3 i)).WholeWords (EltTy.packing .f32)

variable [Facts₀]

abbrev win0_0 : Pipeline.Window sig grid0 :=
  Pipeline.Window.ofSpec (Memref.whole main_v0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x3x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S8x1024 : Shape := ⟨2, ![8, 1024]⟩
abbrev S8x1024x3 : Shape := ⟨3, ![8, 1024, 3]⟩
abbrev S8x1x2048x3 : Shape := ⟨4, ![8, 1, 2048, 3]⟩
abbrev S8x1024x1x3 : Shape := ⟨4, ![8, 1024, 1, 3]⟩
abbrev S8x1024x2048x3 : Shape := ⟨4, ![8, 1024, 2048, 3]⟩
abbrev S_ : Shape := ⟨0, ![]⟩
abbrev S8x1024x2048 : Shape := ⟨3, ![8, 1024, 2048]⟩
abbrev S8x1024x2048x1 : Shape := ⟨4, ![8, 1024, 2048, 1]⟩
abbrev S8x1024x1x1 : Shape := ⟨4, ![8, 1024, 1, 1]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x1024, .f32⟩
  | .hbm, ⟨2, _⟩ => ⟨S8x1024x3, .f32⟩
  | .hbm, ⟨3, _⟩ => ⟨S8x1x2048x3, .f32⟩
  | .hbm, ⟨4, _⟩ => ⟨S8x1024x1x3, .f32⟩
  | .hbm, ⟨5, _⟩ => ⟨S8x1024x2048x3, .f32⟩
  | .hbm, ⟨6, _⟩ => ⟨S8x1024x2048x3, .f32⟩
  | .hbm, ⟨7, _⟩ => ⟨S8x1024x2048x3, .f32⟩
  | .hbm, ⟨8, _⟩ => ⟨S8x1024x2048x3, .f32⟩
  | .hbm, ⟨9, _⟩ => ⟨S_, .f32⟩
  | .hbm, ⟨10, _⟩ => ⟨S8x1024x2048, .f32⟩
  | .hbm, ⟨11, _⟩ => ⟨S8x1024x2048x1, .f32⟩
  | .hbm, ⟨12, _⟩ => ⟨S8x1024x2048x1, .f32⟩
  | .hbm, ⟨13, _⟩ => ⟨S8x1024x1x1, .f32⟩
  | .hbm, ⟨14, _⟩ => ⟨S8x1024x2048x3, .f32⟩
  | .hbm, ⟨15, _⟩ => ⟨S8x1024x2048x3, .f32⟩
  | .hbm, ⟨16, _⟩ => ⟨S8x1024x2048x1, .f32⟩
  | .hbm, ⟨17, _⟩ => ⟨S8x1024x2048x1, .f32⟩
  | .hbm, ⟨18, _⟩ => ⟨S8x1024x2048x3, .f32⟩
  | .hbm, ⟨19, _⟩ => ⟨S8x1024x2048x3, .f32⟩
  | .hbm, ⟨20, _⟩ => ⟨S_, .f32⟩
  | .hbm, ⟨21, _⟩ => ⟨S8x2048x3, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S8x2048x3_S8x1x2048x3_0_2_3 : S8x2048x3.BroadcastsInDim S8x1x2048x3 (![0, 2, 3] : Fin 3 → Fin S8x1x2048x3.rank)
  bcast_S8x1024x3_S8x1024x1x3_0_1_3 : S8x1024x3.BroadcastsInDim S8x1024x1x3 (![0, 1, 3] : Fin 3 → Fin S8x1024x1x3.rank)
  bcast_S8x1x2048x3_S8x1024x2048x3_0_1_2_3 : S8x1x2048x3.BroadcastsInDim S8x1024x2048x3 (![0, 1, 2, 3] : Fin 4 → Fin S8x1024x2048x3.rank)
  bcast_S8x1024x1x3_S8x1024x2048x3_0_1_2_3 : S8x1024x1x3.BroadcastsInDim S8x1024x2048x3 (![0, 1, 2, 3] : Fin 4 → Fin S8x1024x2048x3.rank)
  reducesTo_S8x1024x2048x3_S8x1024x2048_d3 : S8x1024x2048x3.ReducesTo [3] S8x1024x2048
  h_S_ : 0 < S_.numel
  bcast_S8x1024x2048_S8x1024x2048x1_0_1_2 : S8x1024x2048.BroadcastsInDim S8x1024x2048x1 (![0, 1, 2] : Fin 3 → Fin S8x1024x2048x1.rank)
  bcast_S8x1024_S8x1024x1x1_0_1 : S8x1024.BroadcastsInDim S8x1024x1x1 (![0, 1] : Fin 2 → Fin S8x1024x1x1.rank)
  bcast_S8x1024x1x1_S8x1024x2048x3_0_1_2_3 : S8x1024x1x1.BroadcastsInDim S8x1024x2048x3 (![0, 1, 2, 3] : Fin 4 → Fin S8x1024x2048x3.rank)
  bcast_S8x1024x2048x1_S8x1024x2048x3_0_1_2_3 : S8x1024x2048x1.BroadcastsInDim S8x1024x2048x3 (![0, 1, 2, 3] : Fin 4 → Fin S8x1024x2048x3.rank)
  reducesTo_S8x1024x2048x3_S8x2048x3_d1 : S8x1024x2048x3.ReducesTo [1] S8x2048x3

variable [Facts₀]

class Facts : Prop extends Facts₀ where

variable [Facts]
-- ==== Proof.FieldSpec.lean ====
/-
  The field of point charges, as one function of the three argument arrays.

  For a batch `b`, an atom `n` and a charge `m` let `d k = P (b, n, k) - C (b, m, k)` (`k` = x, y, z) be the vector from
  the charge to the atom and `s = (d x · d x + d y · d y) + d z · d z` its squared length. The field at atom `n`,
  component `c`, is the sum over the charges of `Q (b, m) · s^(-3/2) · d c`. It is written here the way the kernel
  computes it, with the inverse square root cubed as a weight: `(Q · ((r · r) · r)) · d c`, `r = rsqrt s`.

  The other way to write a term — the quotient `(Q · d c) / ((√s · √s) · √s)` — is the same extended real as soon as
  every entry is a real number and `s` is positive: both are then the real `Q · d c / (√s)³` (`term_eq`). At `s = 0`
  the two differ (the product is `0`, the quotient `0 / 0`), which is why the squared distance is required positive.
-/
import Idealize.ShloMosaic.PureOps.Ideal
import Idealize.ShloMosaic.Lib.ValueIdx

noncomputable section

namespace Cert.Field

open Idealize.ShloMosaic Idealize.ShloMosaic.ValueIdx

/-- Atom positions `[batch, atom, xyz]`, charges `[batch, charge]`, charge positions `[batch, charge, xyz]`. -/
abbrev SP : Shape := ⟨3, ![8, 2048, 3]⟩
abbrev SQ : Shape := ⟨2, ![8, 1024]⟩
abbrev SC : Shape := ⟨3, ![8, 1024, 3]⟩

/-- An extended real that is a real number. -/
def IsReal (x : EReal) : Prop := ∃ r : ℝ, x = (r : EReal)

/-- Component `k` of the vector from charge `m` to atom `n` of batch `b`. -/
def diff (P : SP.Idx → EReal) (C : SC.Idx → EReal) (b : Fin 8) (m : Fin 1024) (n : Fin 2048) (k : Fin 3) : EReal :=
  P (ix3 b n k) - C (ix3 b m k)

/-- The squared distance between atom `n` and charge `m`. -/
def dist2 (P : SP.Idx → EReal) (C : SC.Idx → EReal) (b : Fin 8) (m : Fin 1024) (n : Fin 2048) : EReal :=
  (diff P C b m n 0 * diff P C b m n 0 + diff P C b m n 1 * diff P C b m n 1) + diff P C b m n 2 * diff P C b m n 2

/-- The charge times the cube of the inverse distance. -/
def weight (P : SP.Idx → EReal) (Q : SQ.Idx → EReal) (C : SC.Idx → EReal) (b : Fin 8) (m : Fin 1024) (n : Fin 2048) : EReal :=
  Q (ix2 b m) * ((Ideal.rsqrt (dist2 P C b m n) * Ideal.rsqrt (dist2 P C b m n)) * Ideal.rsqrt (dist2 P C b m n))

/-- The field: at `(b, n, c)` the sum over the charges of weight times the difference's component `c`. -/
def field (P : SP.Idx → EReal) (Q : SQ.Idx → EReal) (C : SC.Idx → EReal) : SP.Idx → EReal :=
  fun i => ∑ m : Fin 1024, weight P Q C (i 0) m (i 1) * diff P C (i 0) m (i 1) (i 2)

/-- What the two programs need of their inputs: every entry a real number, and no atom on a charge. -/
structure Good (P : SP.Idx → EReal) (Q : SQ.Idx → EReal) (C : SC.Idx → EReal) : Prop where
  realP : ∀ i, IsReal (P i)
  realQ : ∀ i, IsReal (Q i)
  realC : ∀ i, IsReal (C i)
  apart : ∀ b m n, 0 < dist2 P C b m n

/-- For real `q`, `v` and a positive real `s`: the quotient of `q · v` by the cube of `√s` is `q` times the cube of
    `rsqrt s` times `v` — both are the real number `q · v / (√s)³`. -/
theorem term_eq (q v s : ℝ) (hs : 0 < s) :
    Ideal.div ((q : EReal) * (v : EReal)) ((Ideal.sqrt (s : EReal) * Ideal.sqrt (s : EReal)) * Ideal.sqrt (s : EReal))
      = ((q : EReal) * ((Ideal.rsqrt (s : EReal) * Ideal.rsqrt (s : EReal)) * Ideal.rsqrt (s : EReal))) * (v : EReal) := by
  have hr : 0 < Real.sqrt s := Real.sqrt_pos.mpr hs
  rw [Ideal.sqrt_coe, Ideal.rsqrt_coe, if_neg (not_lt.mpr hs.le), if_neg (not_lt.mpr hs.le), if_neg hs.ne']
  rw [← EReal.coe_mul, ← EReal.coe_mul, ← EReal.coe_mul, ← EReal.coe_mul, ← EReal.coe_mul,
    Ideal.div_coe (by positivity), ← EReal.coe_mul, ← EReal.coe_mul]
  congr 1
  field_simp

/-- The same on extended reals known to be real, the squared length written out: the form both programs' terms take. -/
theorem term_bridge {q x y z v : EReal} (hq : IsReal q) (hx : IsReal x) (hy : IsReal y) (hz : IsReal z) (hv : IsReal v)
    (hs : 0 < (x * x + y * y) + z * z) :
    Ideal.div (q * v) ((Ideal.sqrt ((x * x + y * y) + z * z) * Ideal.sqrt ((x * x + y * y) + z * z)) * Ideal.sqrt ((x * x + y * y) + z * z))
      = (q * ((Ideal.rsqrt ((x * x + y * y) + z * z) * Ideal.rsqrt ((x * x + y * y) + z * z)) * Ideal.rsqrt ((x * x + y * y) + z * z))) * v := by
  obtain ⟨q, rfl⟩ := hq
  obtain ⟨x, rfl⟩ := hx
  obtain ⟨y, rfl⟩ := hy
  obtain ⟨z, rfl⟩ := hz
  obtain ⟨v, rfl⟩ := hv
  have e : ((x : EReal) * x + y * y) + z * z = (((x * x + y * y) + z * z : ℝ) : EReal) := by
    rw [EReal.coe_add, EReal.coe_add, EReal.coe_mul, EReal.coe_mul, EReal.coe_mul]
  rw [e] at hs ⊢
  exact term_eq q v _ (by exact_mod_cast hs)

/-- A difference of reals is real. -/
theorem isReal_sub {x y : EReal} (hx : IsReal x) (hy : IsReal y) : IsReal (x - y) := by
  obtain ⟨x, rfl⟩ := hx
  obtain ⟨y, rfl⟩ := hy
  exact ⟨x - y, (EReal.coe_sub x y).symm⟩

/-- An extended real strictly between the infinities is real. -/
theorem isReal_of_ne {x : EReal} (h1 : x ≠ ⊤) (h2 : x ≠ ⊥) : IsReal x := ⟨x.toReal, (EReal.coe_toReal h1 h2).symm⟩

end Cert.Field

end
-- ==== Proof.PreFacts.lean ====
/-
  The precondition, read back.

  The precondition is one truth value: the conjunction of four "for every index" statements, each an and-reduction
  over all axes of an elementwise comparison. Three say that an entry's absolute value max x (-x) is below +∞ — one
  for the atom positions, one for the charges, one for the charge positions. The fourth says that, for every batch b,
  charge m and atom n, the sum over the three coordinates k of the squared difference (P (b, n, k) - C (b, m, k))²
  is above 0.

  An and-reduction that comes out 1 met a 1 at every index, and a comparison that comes out 1 says its inequality
  holds. An extended real whose absolute value is below +∞ is neither +∞ nor -∞, hence a real number. The sum of the
  three squares, added in coordinate order from the initial value 0, is the squared distance of the specification.
  So the precondition gives the specification's `Good`: real entries, and no atom on a charge.
-/
import proofs.«107243_j44839458570525_2_alg».proof.Pre_finite_inputs
import proofs.«107243_j44839458570525_2_alg».proof.Proof.Gen.Pre_finite_inputs
import proofs.«107243_j44839458570525_2_alg».proof.Proof.FieldSpec
import Idealize.ShloMosaic.Lib.ReduceAll
import Idealize.ShloMosaic.Lib.ValueIdx
import Idealize.ShloMosaic.Lib.Pipeline.Value
import Idealize.ShloMosaic.PureOps.Ideal.Laws

noncomputable section

namespace Cert.PreFacts

open Idealize.ShloMosaic Idealize.ShloMosaic.ValueIdx Cert.Pre_finite_inputs Cert.Field

instance : Subsingleton S_.Idx := ⟨fun a b => funext fun d => d.elim0⟩

/-- The bit pattern 0x7F800000 is the f32 positive infinity. -/
theorem inf_bits : Ideal.ofBits .f32 0x7F800000#32 = (⊤ : EReal) := by
  simp [Ideal.ofBits, Ideal.ieee]

/-- The one-bit word of a decided proposition is 1 only when the proposition holds. -/
theorem of_ofBool_decide {p : Prop} [Decidable p] (h : BitVec.ofBool (decide p) = 1#1) : p := by
  by_contra hn
  rw [decide_eq_false hn] at h
  exact absurd h (by decide)

/-- A comparison "less than" that came out true says the first extended real is below the second. -/
theorem lt_of_cmp_olt {a b : EReal} (h : Ideal.cmp .olt a b = 1#1) : a < b := of_ofBool_decide h

/-- A comparison "greater than" that came out true says the second extended real is below the first. -/
theorem lt_of_cmp_ogt {a b : EReal} (h : Ideal.cmp .ogt a b = 1#1) : b < a := of_ofBool_decide h

/-- An extended real whose absolute value max x (-x) is below +∞ is neither infinity, so it is a real number. -/
theorem isReal_of_abs_lt_top {x : EReal} (h : max x (-x) < ⊤) : IsReal x := by
  refine isReal_of_ne ?_ ?_
  · rintro rfl; simp at h
  · rintro rfl; simp at h

/-- "Every |x i| is below +∞", as an and-reduction over all axes of the elementwise comparison against the broadcast
    constant +∞: then every entry of x is a real number. -/
theorem real_of_all {s : Shape} {axes : List (Fin s.rank)} (x : s.Idx → EReal)
    (hb : S_.BroadcastsInDim s (![] : Fin 0 → Fin s.rank)) (hr : s.ReducesTo axes S_) (hu : 0 < S_.numel)
    (h : Host.reduce IntOp.andi
          (cmpf (F := Ideal) (φ := .f32) .olt (Host.absf (F := Ideal) (φ := .f32) x)
            (broadcastInDim s ![] hb (constant (F := Ideal) S_ .f32 0x7F800000#32)))
          (constantI S_ 1 1#1) hr hu ix0 = 1#1) :
    ∀ i, IsReal (x i) := by
  intro i
  have e := Host.reduce_andi_all _ _ hr hu ix0 h i
  have e2 : Ideal.cmp .olt (max (x i) (-(x i))) (Ideal.ofBits .f32 0x7F800000#32) = 1#1 := e
  rw [inf_bits] at e2
  exact isReal_of_abs_lt_top (lt_of_cmp_olt e2)

/-- The difference array the predicate squares: atom positions and charge positions, each broadcast to
    [batch, charge, atom, xyz], subtracted. -/
def dvec [Facts] (P : SP.Idx → EReal) (C : SC.Idx → EReal) : S8x1024x2048x3.Idx → EReal :=
  subf (F := Ideal) (φ := .f32)
    (broadcastInDim S8x1024x2048x3 ![0, 1, 2, 3] Facts.bcast_S8x1x2048x3_S8x1024x2048x3_0_1_2_3
      (broadcastInDim S8x1x2048x3 ![0, 2, 3] Facts.bcast_S8x2048x3_S8x1x2048x3_0_2_3 P))
    (broadcastInDim S8x1024x2048x3 ![0, 1, 2, 3] Facts.bcast_S8x1024x1x3_S8x1024x2048x3_0_1_2_3
      (broadcastInDim S8x1024x1x3 ![0, 1, 3] Facts.bcast_S8x1024x3_S8x1024x1x3_0_1_3 C))

/-- The atom positions broadcast twice, read at (b, m, n, k): the atom's coordinate P (b, n, k). -/
theorem bcastP_apply [Facts] (P : SP.Idx → EReal) (b : Fin 8) (m : Fin 1024) (n : Fin 2048) (k : Fin 3) :
    broadcastInDim S8x1024x2048x3 ![0, 1, 2, 3] Facts.bcast_S8x1x2048x3_S8x1024x2048x3_0_1_2_3
      (broadcastInDim S8x1x2048x3 ![0, 2, 3] Facts.bcast_S8x2048x3_S8x1x2048x3_0_2_3 P) (ix4 b m n k) = P (ix3 b n k) := by
  rw [broadcastInDim_apply _ Facts.bcast_S8x1x2048x3_S8x1024x2048x3_0_1_2_3 _ (ix4 b m n k) (ix4 b 0 n k) (fun a => match a with
    | ⟨0, _⟩ => by show b.val = if (8 : Nat) = 1 then 0 else b.val; rw [if_neg (by decide)]
    | ⟨1, _⟩ => by show 0 = if (1 : Nat) = 1 then 0 else m.val; rw [if_pos rfl]
    | ⟨2, _⟩ => by show n.val = if (2048 : Nat) = 1 then 0 else n.val; rw [if_neg (by decide)]
    | ⟨3, _⟩ => by show k.val = if (3 : Nat) = 1 then 0 else k.val; rw [if_neg (by decide)])]
  exact broadcastInDim_apply _ Facts.bcast_S8x2048x3_S8x1x2048x3_0_2_3 P (ix4 b 0 n k) (ix3 b n k) (fun a => match a with
    | ⟨0, _⟩ => by show b.val = if (8 : Nat) = 1 then 0 else b.val; rw [if_neg (by decide)]
    | ⟨1, _⟩ => by show n.val = if (2048 : Nat) = 1 then 0 else n.val; rw [if_neg (by decide)]
    | ⟨2, _⟩ => by show k.val = if (3 : Nat) = 1 then 0 else k.val; rw [if_neg (by decide)])

/-- The charge positions broadcast twice, read at (b, m, n, k): the charge's coordinate C (b, m, k). -/
theorem bcastC_apply [Facts] (C : SC.Idx → EReal) (b : Fin 8) (m : Fin 1024) (n : Fin 2048) (k : Fin 3) :
    broadcastInDim S8x1024x2048x3 ![0, 1, 2, 3] Facts.bcast_S8x1024x1x3_S8x1024x2048x3_0_1_2_3
      (broadcastInDim S8x1024x1x3 ![0, 1, 3] Facts.bcast_S8x1024x3_S8x1024x1x3_0_1_3 C) (ix4 b m n k) = C (ix3 b m k) := by
  rw [broadcastInDim_apply _ Facts.bcast_S8x1024x1x3_S8x1024x2048x3_0_1_2_3 _ (ix4 b m n k) (ix4 b m 0 k) (fun a => match a with
    | ⟨0, _⟩ => by show b.val = if (8 : Nat) = 1 then 0 else b.val; rw [if_neg (by decide)]
    | ⟨1, _⟩ => by show m.val = if (1024 : Nat) = 1 then 0 else m.val; rw [if_neg (by decide)]
    | ⟨2, _⟩ => by show 0 = if (1 : Nat) = 1 then 0 else n.val; rw [if_pos rfl]
    | ⟨3, _⟩ => by show k.val = if (3 : Nat) = 1 then 0 else k.val; rw [if_neg (by decide)])]
  exact broadcastInDim_apply _ Facts.bcast_S8x1024x3_S8x1024x1x3_0_1_3 C (ix4 b m 0 k) (ix3 b m k) (fun a => match a with
    | ⟨0, _⟩ => by show b.val = if (8 : Nat) = 1 then 0 else b.val; rw [if_neg (by decide)]
    | ⟨1, _⟩ => by show m.val = if (1024 : Nat) = 1 then 0 else m.val; rw [if_neg (by decide)]
    | ⟨2, _⟩ => by show k.val = if (3 : Nat) = 1 then 0 else k.val; rw [if_neg (by decide)])

/-- The difference array at (b, m, n, k) is component k of the vector from charge m to atom n. -/
theorem dvec_apply [Facts] (P : SP.Idx → EReal) (C : SC.Idx → EReal) (b : Fin 8) (m : Fin 1024) (n : Fin 2048) (k : Fin 3) :
    dvec P C (ix4 b m n k) = diff P C b m n k := by
  unfold dvec diff
  rw [subf_apply, bcastP_apply, bcastC_apply]

/-- The sum over the last axis of an array over [8, 1024, 2048, 3], from the initial value 0, read at (b, m, n):
    the three entries along that axis, added in order. -/
theorem sum_last [Facts] (y : S8x1024x2048x3.Idx → EReal) (b : Fin 8) (m : Fin 1024) (n : Fin 2048) :
    Host.reduceAdd (F := Ideal) (φ := .f32) y (constant (F := Ideal) S_ .f32 0x00000000#32)
        Facts.reducesTo_S8x1024x2048x3_S8x1024x2048_d3 Facts.h_S_ (ix3 b m n)
      = (y (ix4 b m n 0) + y (ix4 b m n 1)) + y (ix4 b m n 2) := by
  have hR : S8x1024x2048x3.Reduces [3] S8x1024x2048 := by decide
  simp only [Host.reduceAdd, Ideal.hostReduceAdd_def]
  rw [Ideal.hostReduceAdd_single Facts.reducesTo_S8x1024x2048x3_S8x1024x2048_d3 hR]
  have e0 : (constant (F := Ideal) S_ .f32 0x00000000#32) (Shape.Idx.first Facts.h_S_) = 0 := Ideal.ofBits_zero_f32
  rw [e0, zero_add]
  refine (Finset.sum_congr rfl fun k _ => ?_).trans (Fin.sum_univ_three (fun k : Fin 3 => y (ix4 b m n k)))
  exact congrArg y (funext fun a => Fin.ext (by match a with | ⟨0, _⟩ => rfl | ⟨1, _⟩ => rfl | ⟨2, _⟩ => rfl | ⟨3, _⟩ => rfl))

/-- "Every summed square is above 0", as an and-reduction over all axes of the comparison of the sums of squares
    against the broadcast constant 0: then the squared distance of every atom from every charge is positive. -/
theorem apart_of_all [Facts] (P : SP.Idx → EReal) (C : SC.Idx → EReal)
    (h : Host.reduce IntOp.andi
          (cmpf (F := Ideal) (φ := .f32) .ogt
            (Host.reduceAdd (F := Ideal) (φ := .f32) (mulf (F := Ideal) (φ := .f32) (dvec P C) (dvec P C))
              (constant (F := Ideal) S_ .f32 0x00000000#32) Facts.reducesTo_S8x1024x2048x3_S8x1024x2048_d3 Facts.h_S_)
            (broadcastInDim S8x1024x2048 ![] Facts.bcast_S_S8x1024x2048 (constant (F := Ideal) S_ .f32 0x00000000#32)))
          (constantI S_ 1 1#1) Facts.reducesTo_S8x1024x2048_S_d0_1_2 Facts.h_S_ ix0 = 1#1) :
    ∀ b m n, 0 < dist2 P C b m n := by
  intro b m n
  have e := Host.reduce_andi_all _ _ Facts.reducesTo_S8x1024x2048_S_d0_1_2 Facts.h_S_ ix0 h (ix3 b m n)
  rw [cmpf_apply, Ideal.cmpf_def, sum_last] at e
  have e2 := lt_of_cmp_ogt e
  have z : broadcastInDim S8x1024x2048 ![] Facts.bcast_S_S8x1024x2048 (constant (F := Ideal) S_ .f32 0x00000000#32) (ix3 b m n)
      = (0 : EReal) := Ideal.ofBits_zero_f32
  rw [z, mulf_apply, mulf_apply, mulf_apply, dvec_apply, dvec_apply, dvec_apply] at e2
  unfold dist2
  exact e2

/-- The precondition — every entry of the three arrays has absolute value below +∞, and every sum of squared
    differences is above 0 — gives what the specification asks: real entries, and no atom on a charge. -/
theorem good_of_pre [Cert.Pre_finite_inputs.Facts] (P : Cert.Field.SP.Idx → EReal) (Q : Cert.Field.SQ.Idx → EReal)
    (C : Cert.Field.SC.Idx → EReal)
    (h : Cert.Pre_finite_inputs.fn (F := Ideal) P Q C = fun _ => 1#1) : Cert.Field.Good P Q C := by
  have h0 := congrFun h ValueIdx.ix0
  dsimp only [Cert.Pre_finite_inputs.fn, Cert.Pre_finite_inputs.fn_part1] at h0
  change IntOp.andi _ _ = 1#1 at h0
  obtain ⟨h123, h4⟩ := IntOp.andi_eq_one.1 h0
  change IntOp.andi _ _ = 1#1 at h123
  obtain ⟨h12, h3⟩ := IntOp.andi_eq_one.1 h123
  change IntOp.andi _ _ = 1#1 at h12
  obtain ⟨h1, h2⟩ := IntOp.andi_eq_one.1 h12
  exact ⟨real_of_all P _ _ _ h1, real_of_all Q _ _ _ h2, real_of_all C _ _ _ h3, apart_of_all P C h4⟩

end Cert.PreFacts

end
-- ==== Proof.RefField.lean ====
/-
  The reference computes the field.

  The reference program forms, for every batch \`b\`, charge \`m\`, atom \`n\` and component \`c\`, the difference
  \`d c = P (b, n, c) - C (b, m, c)\`, the squared length \`s = 0 + ((d x · d x + d y · d y) + d z · d z)\`, the cube
  \`(√s · √s) · √s\` and the quotient \`(Q (b, m) · d c) / ((√s · √s) · √s)\`, and then sums the quotients over the charges.
  Each stage is read at one index; the composed index maps of the broadcasts are identified with the coordinates; and
  when every entry is real and every \`s\` positive the quotient is the weight times the difference, so the sum is the
  field of the specification.
-/
import proofs.«107243_j44839458570525_2_alg».proof.Proof.FieldSpec
import proofs.«107243_j44839458570525_2_alg».proof.Proof.Gen.ReferenceIdeal.Read

noncomputable section

namespace Cert.RefField

open Idealize.ShloMosaic Idealize.ShloMosaic.ValueIdx Cert.ReferenceIdeal Cert.ReferenceIdeal.Read Cert.Field

/-- The difference tensor at \`(b, m, n, k)\` is component \`k\` of the vector from charge \`m\` to atom \`n\`. -/
theorem v4_at (P : SP.Idx → EReal) (C : SC.Idx → EReal) (b : Fin 8) (m : Fin 1024) (n : Fin 2048) (k : Fin 3) :
    val_main_v4 (F := Ideal) P C (ix4 b m n k) = diff P C b m n k := by
  have e1 : idx_main_v0 (idx_main_v2 (ix4 b m n k)) = ix3 b n k :=
    funext fun a => Fin.ext (by match a with | ⟨0, _⟩ => rfl | ⟨1, _⟩ => rfl | ⟨2, _⟩ => rfl)
  have e2 : idx_main_v1 (idx_main_v3 (ix4 b m n k)) = ix3 b m k :=
    funext fun a => Fin.ext (by match a with | ⟨0, _⟩ => rfl | ⟨1, _⟩ => rfl | ⟨2, _⟩ => rfl)
  rw [val_main_v4_apply, val_main_v2_apply, val_main_v0_apply, val_main_v3_apply, val_main_v1_apply, e1, e2]
  rfl

/-- The sum of the squared components, started from the constant zero, is the squared distance. -/
theorem call0_v1_at (P : SP.Idx → EReal) (C : SC.Idx → EReal) (b : Fin 8) (m : Fin 1024) (n : Fin 2048) :
    val_main_call0_v1 (F := Ideal) P C (ix3 b m n) = dist2 P C b m n := by
  have e : ∀ k : Fin 3, idx_main_call0_v1 (ix3 b m n) k = ix4 b m n k := fun k =>
    funext fun a => Fin.ext (by match a with | ⟨0, _⟩ => rfl | ⟨1, _⟩ => rfl | ⟨2, _⟩ => rfl | ⟨3, _⟩ => rfl)
  rw [val_main_call0_v1_apply, val_main_call0_cst_apply, Fin.sum_univ_three, e, e, e,
    val_main_call0_v0_apply, val_main_call0_v0_apply, val_main_call0_v0_apply, v4_at, v4_at, v4_at]
  simp only [Ideal.mulf_def, Ideal.ofBits_def, Ideal.ofBits_zero_f32, zero_add]
  rfl

/-- The square root stage at \`(b, m, n, 0)\` is the root of the squared distance. -/
theorem v5_at (P : SP.Idx → EReal) (C : SC.Idx → EReal) (b : Fin 8) (m : Fin 1024) (n : Fin 2048) (z : Fin 1) :
    val_main_v5 (F := Ideal) P C (ix4 b m n z) = Ideal.sqrt (dist2 P C b m n) := by
  have e : idx_main_call0_v2 (ix4 b m n z) = ix3 b m n :=
    funext fun a => Fin.ext (by match a with | ⟨0, _⟩ => rfl | ⟨1, _⟩ => rfl | ⟨2, _⟩ => rfl)
  rw [val_main_v5_apply, val_main_call0_v2_apply, e, call0_v1_at]
  rfl

/-- The denominator at \`(b, m, n, c)\` is the cube of the root of the squared distance. -/
theorem v11_at (P : SP.Idx → EReal) (C : SC.Idx → EReal) (b : Fin 8) (m : Fin 1024) (n : Fin 2048) (c : Fin 3) :
    val_main_v11 (F := Ideal) P C (ix4 b m n c)
      = (Ideal.sqrt (dist2 P C b m n) * Ideal.sqrt (dist2 P C b m n)) * Ideal.sqrt (dist2 P C b m n) := by
  have e : idx_main_v11 (ix4 b m n c) = ix4 b m n (0 : Fin 1) :=
    funext fun a => Fin.ext (by match a with | ⟨0, _⟩ => rfl | ⟨1, _⟩ => rfl | ⟨2, _⟩ => rfl | ⟨3, _⟩ => rfl)
  rw [val_main_v11_apply, e, val_main_v10_apply, val_main_v9_apply, v5_at]
  rfl

/-- The numerator at \`(b, m, n, c)\` is the charge times the difference's component. -/
theorem v8_at (P : SP.Idx → EReal) (Q : SQ.Idx → EReal) (C : SC.Idx → EReal) (b : Fin 8) (m : Fin 1024) (n : Fin 2048)
    (c : Fin 3) : val_main_v8 (F := Ideal) P Q C (ix4 b m n c) = Q (ix2 b m) * diff P C b m n c := by
  have e : idx_main_v6 (idx_main_v7 (ix4 b m n c)) = ix2 b m :=
    funext fun a => Fin.ext (by match a with | ⟨0, _⟩ => rfl | ⟨1, _⟩ => rfl)
  rw [val_main_v8_apply, val_main_v7_apply, val_main_v6_apply, e, v4_at]
  rfl

/-- One term of the reference's sum: for real entries and a positive squared distance the quotient is the weight times
    the difference's component. -/
theorem v12_at (P : SP.Idx → EReal) (Q : SQ.Idx → EReal) (C : SC.Idx → EReal) (hg : Good P Q C) (b : Fin 8) (m : Fin 1024)
    (n : Fin 2048) (c : Fin 3) :
    val_main_v12 (F := Ideal) P Q C (ix4 b m n c) = weight P Q C b m n * diff P C b m n c := by
  rw [val_main_v12_apply, v8_at, v11_at]
  have hd : ∀ k : Fin 3, IsReal (diff P C b m n k) := fun k => isReal_sub (hg.realP _) (hg.realC _)
  have hs := hg.apart b m n
  unfold weight
  unfold dist2 at hs ⊢
  exact term_bridge (hg.realQ _) (hd 0) (hd 1) (hd 2) (hd c) hs

/-- At coordinates: the reference's result at \`(b, n, c)\` is the sum over the charges of weight times difference. -/
theorem ref_at (P : SP.Idx → EReal) (Q : SQ.Idx → EReal) (C : SC.Idx → EReal) (hg : Good P Q C) (b : Fin 8) (n : Fin 2048)
    (c : Fin 3) :
    val_main_v13 (F := Ideal) P Q C (ix3 b n c) = ∑ m : Fin 1024, weight P Q C b m n * diff P C b m n c := by
  have e : ∀ k : Fin 1024, idx_main_v13 (ix3 b n c) k = ix4 b k n c := fun k =>
    funext fun a => Fin.ext (by match a with | ⟨0, _⟩ => rfl | ⟨1, _⟩ => rfl | ⟨2, _⟩ => rfl | ⟨3, _⟩ => rfl)
  rw [val_main_v13_apply, val_main_cst_apply]
  simp only [Ideal.ofBits_def, Ideal.ofBits_zero_f32, zero_add]
  exact Finset.sum_congr rfl fun k _ => by rw [e k, v12_at P Q C hg]

/-- Under the precondition the reference's result is the field. -/
theorem ref_is_field (P : SP.Idx → EReal) (Q : SQ.Idx → EReal) (C : SC.Idx → EReal) (hg : Good P Q C) :
    val_main_v13 (F := Ideal) P Q C = field P Q C := by
  funext i
  obtain ⟨b, n, c, rfl⟩ : ∃ (b : Fin 8) (n : Fin 2048) (c : Fin 3), i = ix3 b n c := ⟨i 0, i 1, i 2, eq_ix3 i⟩
  exact ref_at P Q C hg b n c

end Cert.RefField

end
-- ==== Proof.KernelBlock.lean ====
/-
  What one grid point writes.

  At a grid point the body holds a block of atom positions `x0 : [1, 3, 512]` (component `k`, lane `j`), the batch's
  charge positions `x1 : [1, 1024, 3]` (charge `m`, component `k`) and its charges `x2 : [1, 1024, 1]`. It spreads each
  position row over the 1024 charges and each charge-position column over the 512 lanes, subtracts, sums the three
  squares, takes the inverse square root, cubes it, multiplies by the charge, and for each component sums weight
  times difference over the charges; the three sums are stored as the three rows of the output block.

  Each payload is read at explicit coordinates — a row broadcast reads its row, a column broadcast its column, a
  shape cast that adds or drops a unit axis reads the same entry, a sum over the first axis is the sum over the
  charges — and the three one-row stores together are one function of the block index, `blockFn`: at `(·, k, j)`
  the sum over `m` of `x2 m · rsqrt(s)³ · (x0 (k, j) - x1 (m, k))`, `s` the squared distance in lane `j`.
-/
import proofs.«107243_j44839458570525_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- A column `[a, 1]` broadcast to `[a, b]` reads, at `(p, c)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The difference of a row `[1, 1, 512]` and a column `[1, 1024, 1]`, both spread over `[1024, 512]`: at `(m, j)` the row's
    entry `j` minus the column's entry `m`. -/
theorem pay4_apply (r : Vec Ideal S1x1x512 .f32) (q : Vec Ideal S1x1024x1 .f32) (m : Fin 1024) (j : Fin 512) :
    k0_pay4 (F := Ideal) r q (ix2 m j) = r (ix3 (0 : Fin 1) (0 : Fin 1) j) - q (ix3 (0 : Fin 1) m (0 : Fin 1)) := by
  unfold k0_pay4
  show (broadcastTo S1024x512 (shapeCast S1x512 r shapeCasts_S1x1x512_S1x512) broadcasts_S1x512_S1024x512) (ix2 m j)
      - (broadcastTo S1024x512 (shapeCast S1024x1 q shapeCasts_S1x1024x1_S1024x1) broadcasts_S1024x1_S1024x512) (ix2 m j) = _
  rw [broadcastTo_1b_ab_apply, shapeCast_1ab_ab_apply, broadcastTo_a1_ab_apply, shapeCast_1ab_ab_apply]

/-- The second and third differences are the same expression of their row and column. -/
theorem pay5_apply (r : Vec Ideal S1x1x512 .f32) (q : Vec Ideal S1x1024x1 .f32) (m : Fin 1024) (j : Fin 512) :
    k0_pay5 (F := Ideal) r q (ix2 m j) = r (ix3 (0 : Fin 1) (0 : Fin 1) j) - q (ix3 (0 : Fin 1) m (0 : Fin 1)) :=
  pay4_apply r q m j
theorem pay6_apply (r : Vec Ideal S1x1x512 .f32) (q : Vec Ideal S1x1024x1 .f32) (m : Fin 1024) (j : Fin 512) :
    k0_pay6 (F := Ideal) r q (ix2 m j) = r (ix3 (0 : Fin 1) (0 : Fin 1) j) - q (ix3 (0 : Fin 1) m (0 : Fin 1)) :=
  pay4_apply r q m j

/-- The squared length of a vector with components `a`, `b`, `c`, summed in the kernel's order. -/
abbrev sq3 (a b c : EReal) : EReal := (a * a + b * b) + c * c
/-- The cube, multiplied in the kernel's order. -/
abbrev cube (r : EReal) : EReal := (r * r) * r

/-- The weight at `(m, j)`: the charge `m` times the cube of the inverse square root of the squared distance. -/
theorem pay7_unfold (v0 v2 v4 : Vec Ideal S1x1x512 .f32) (v6 v8 v10 v12 : Vec Ideal S1x1024x1 .f32) (i : S1024x512.Idx) :
    k0_pay7 (F := Ideal) v0 v2 v4 v6 v8 v10 v12 i
      = (broadcastTo S1024x512 (shapeCast S1024x1 v12 shapeCasts_S1x1024x1_S1024x1) broadcasts_S1024x1_S1024x512) i
        * cube (Ideal.rsqrt (sq3 (k0_pay4 (F := Ideal) v0 v6 i) (k0_pay5 (F := Ideal) v2 v8 i) (k0_pay6 (F := Ideal) v4 v10 i))) := rfl

theorem pay7_apply (v0 v2 v4 : Vec Ideal S1x1x512 .f32) (v6 v8 v10 v12 : Vec Ideal S1x1024x1 .f32) (m : Fin 1024) (j : Fin 512) :
    k0_pay7 (F := Ideal) v0 v2 v4 v6 v8 v10 v12 (ix2 m j)
      = v12 (ix3 (0 : Fin 1) m (0 : Fin 1))
        * cube (Ideal.rsqrt (sq3 (v0 (ix3 (0 : Fin 1) (0 : Fin 1) j) - v6 (ix3 (0 : Fin 1) m (0 : Fin 1)))
            (v2 (ix3 (0 : Fin 1) (0 : Fin 1) j) - v8 (ix3 (0 : Fin 1) m (0 : Fin 1)))
            (v4 (ix3 (0 : Fin 1) (0 : Fin 1) j) - v10 (ix3 (0 : Fin 1) m (0 : Fin 1))))) := by
  rw [pay7_unfold, broadcastTo_a1_ab_apply, shapeCast_1ab_ab_apply, pay4_apply, pay5_apply, pay6_apply]

/-- The sum over the 1024 rows of a `[1024, 512]` array, at lane `j`. -/
theorem rowsum_apply (A : FVec Ideal S1024x512 .f32) (j : Fin 512) :
    multiReduction (F := Ideal) .add [0] S512 A 0x00000000#32 reduces_S1024x512_S512 (.inl rfl) rfl (ix1 j)
      = ∑ m : Fin 1024, A (ix2 m j) := by
  refine (Ideal.multiReduction_add_single A 0x00000000#32 reduces_S1024x512_S512 (.inl rfl) rfl (ix1 j)).trans ?_
  refine Finset.sum_congr rfl fun m _ => congrArg A ?_
  funext c
  apply Fin.ext
  match c with
  | ⟨0, _⟩ => rfl
  | ⟨1, _⟩ => rfl

/-- The x component's lane sums: at lane `j` the sum over the charges of weight times the x difference. -/
theorem pay8_apply (v0 v2 v4 : Vec Ideal S1x1x512 .f32) (v6 v8 v10 v12 : Vec Ideal S1x1024x1 .f32) (u : Fin 1) (j : Fin 512) :
    k0_pay8 (F := Ideal) v0 v2 v4 v6 v8 v10 v12 (ix2 u j)
      = ∑ m : Fin 1024, k0_pay7 (F := Ideal) v0 v2 v4 v6 v8 v10 v12 (ix2 m j) * k0_pay4 (F := Ideal) v0 v6 (ix2 m j) := by
  unfold k0_pay8
  show shapeCast S1x512 (multiReduction (F := Ideal) .add [0] S512 (mulf (k0_pay7 (F := Ideal) v0 v2 v4 v6 v8 v10 v12) (k0_pay4 (F := Ideal) v0 v6)) 0x00000000#32 reduces_S1024x512_S512 (.inl rfl) rfl) shapeCasts_S512_S1x512 (ix2 u j) = _
  rw [shapeCast_a_1a_apply, rowsum_apply]
  rfl

/-- A `[1, 512]` row stored as `[1, 1, 512]`. -/
theorem pay1_apply (v : FVec Ideal S1x512 .f32) (u' u : Fin 1) (j : Fin 512) :
    k0_pay1 (F := Ideal) v (ix3 u' u j) = v (ix2 u j) := by
  unfold k0_pay1
  show shapeCast S1x1x512 v shapeCasts_S1x512_S1x1x512 (ix3 u' u j) = _
  rw [shapeCast_ab_1ab_apply]

/-- The y and z components' lane sums, stored as `[1, 1, 512]`. -/
theorem pay2_apply (d w : FVec Ideal S1024x512 .f32) (u' u : Fin 1) (j : Fin 512) :
    k0_pay2 (F := Ideal) d w (ix3 u' u j) = ∑ m : Fin 1024, w (ix2 m j) * d (ix2 m j) := by
  unfold k0_pay2
  show shapeCast S1x1x512 (shapeCast S1x512 (multiReduction (F := Ideal) .add [0] S512 (mulf w d) 0x00000000#32 reduces_S1024x512_S512 (.inl rfl) rfl) shapeCasts_S512_S1x512) shapeCasts_S1x512_S1x1x512 (ix3 u' u j) = _
  rw [shapeCast_ab_1ab_apply, shapeCast_a_1a_apply, rowsum_apply]
  rfl
theorem pay3_apply (d w : FVec Ideal S1024x512 .f32) (u' u : Fin 1) (j : Fin 512) :
    k0_pay3 (F := Ideal) d w (ix3 u' u j) = ∑ m : Fin 1024, w (ix2 m j) * d (ix2 m j) :=
  pay2_apply d w u' u j

/-! ## The block a point writes -/

/-- Component `k` of the vector from charge `m` to the atom in lane `j`, read off the position block `[1, 3, 512]` and the
    charge-position block `[1, 1024, 3]`. -/
def bdiff (x0 : Vec Ideal S1x3x512 .f32) (x1 : Vec Ideal S1x1024x3 .f32) (m : Fin 1024) (j : Fin 512) (k : Fin 3) : EReal :=
  x0 (ix3 (0 : Fin 1) k j) - x1 (ix3 (0 : Fin 1) m k)

/-- The charge times the cube of the inverse distance, off the blocks. -/
def bweight (x0 : Vec Ideal S1x3x512 .f32) (x1 : Vec Ideal S1x1024x3 .f32) (x2 : Vec Ideal S1x1024x1 .f32) (m : Fin 1024) (j : Fin 512) : EReal :=
  x2 (ix3 (0 : Fin 1) m (0 : Fin 1)) * cube (Ideal.rsqrt (sq3 (bdiff x0 x1 m j 0) (bdiff x0 x1 m j 1) (bdiff x0 x1 m j 2)))

/-- The field at lane `j`, component `k`, off the blocks. -/
def bfield (x0 : Vec Ideal S1x3x512 .f32) (x1 : Vec Ideal S1x1024x3 .f32) (x2 : Vec Ideal S1x1024x1 .f32) (k : Fin 3) (j : Fin 512) : EReal :=
  ∑ m : Fin 1024, bweight x0 x1 x2 m j * bdiff x0 x1 m j k

/-- Row `k` of the position block, loaded as `[1, 1, 512]`. -/
theorem ld_row0 (x0 : Vec Ideal S1x3x512 .f32) (u1 u2 : Fin 1) (j : Fin 512) : View.ld x0 r0_0 (ix3 u1 u2 j) = x0 (ix3 (0 : Fin 1) (0 : Fin 3) j) :=
  congrArg x0 (funext fun a => Fin.ext (by
    match a with
    | ⟨0, _⟩ => show 0 + 1 * u1.val = 0; omega
    | ⟨1, _⟩ => show 0 + 1 * u2.val = 0; omega
    | ⟨2, _⟩ => show 0 + 1 * j.val = j.val; omega))
theorem ld_row1 (x0 : Vec Ideal S1x3x512 .f32) (u1 u2 : Fin 1) (j : Fin 512) : View.ld x0 r0_1 (ix3 u1 u2 j) = x0 (ix3 (0 : Fin 1) (1 : Fin 3) j) :=
  congrArg x0 (funext fun a => Fin.ext (by
    match a with
    | ⟨0, _⟩ => show 0 + 1 * u1.val = 0; omega
    | ⟨1, _⟩ => show 1 + 1 * u2.val = 1; omega
    | ⟨2, _⟩ => show 0 + 1 * j.val = j.val; omega))
theorem ld_row2 (x0 : Vec Ideal S1x3x512 .f32) (u1 u2 : Fin 1) (j : Fin 512) : View.ld x0 r0_2 (ix3 u1 u2 j) = x0 (ix3 (0 : Fin 1) (2 : Fin 3) j) :=
  congrArg x0 (funext fun a => Fin.ext (by
    match a with
    | ⟨0, _⟩ => show 0 + 1 * u1.val = 0; omega
    | ⟨1, _⟩ => show 2 + 1 * u2.val = 2; omega
    | ⟨2, _⟩ => show 0 + 1 * j.val = j.val; omega))

/-- Column `k` of the charge-position block, loaded as `[1, 1024, 1]`. -/
theorem ld_col0 (x1 : Vec Ideal S1x1024x3 .f32) (u1 : Fin 1) (m : Fin 1024) (u2 : Fin 1) : View.ld x1 r0_3 (ix3 u1 m u2) = x1 (ix3 (0 : Fin 1) m (0 : Fin 3)) :=
  congrArg x1 (funext fun a => Fin.ext (by
    match a with
    | ⟨0, _⟩ => show 0 + 1 * u1.val = 0; omega
    | ⟨1, _⟩ => show 0 + 1 * m.val = m.val; omega
    | ⟨2, _⟩ => show 0 + 1 * u2.val = 0; omega))
theorem ld_col1 (x1 : Vec Ideal S1x1024x3 .f32) (u1 : Fin 1) (m : Fin 1024) (u2 : Fin 1) : View.ld x1 r0_4 (ix3 u1 m u2) = x1 (ix3 (0 : Fin 1) m (1 : Fin 3)) :=
  congrArg x1 (funext fun a => Fin.ext (by
    match a with
    | ⟨0, _⟩ => show 0 + 1 * u1.val = 0; omega
    | ⟨1, _⟩ => show 0 + 1 * m.val = m.val; omega
    | ⟨2, _⟩ => show 1 + 1 * u2.val = 1; omega))
theorem ld_col2 (x1 : Vec Ideal S1x1024x3 .f32) (u1 : Fin 1) (m : Fin 1024) (u2 : Fin 1) : View.ld x1 r0_5 (ix3 u1 m u2) = x1 (ix3 (0 : Fin 1) m (2 : Fin 3)) :=
  congrArg x1 (funext fun a => Fin.ext (by
    match a with
    | ⟨0, _⟩ => show 0 + 1 * u1.val = 0; omega
    | ⟨1, _⟩ => show 0 + 1 * m.val = m.val; omega
    | ⟨2, _⟩ => show 2 + 1 * u2.val = 2; omega))
/-- The charge block, loaded whole. -/
theorem ld_chg (x2 : Vec Ideal S1x1024x1 .f32) (u1 : Fin 1) (m : Fin 1024) (u2 : Fin 1) : View.ld x2 r0_6 (ix3 u1 m u2) = x2 (ix3 (0 : Fin 1) m (0 : Fin 1)) :=
  congrArg x2 (funext fun a => Fin.ext (by
    match a with
    | ⟨0, _⟩ => show 0 + 1 * u1.val = 0; omega
    | ⟨1, _⟩ => show 0 + 1 * m.val = m.val; omega
    | ⟨2, _⟩ => show 0 + 1 * u2.val = 0; omega))

/-- The weight payload of the loaded rows and columns is the block's weight. -/
theorem weight_eq (x0 : Vec Ideal S1x3x512 .f32) (x1 : Vec Ideal S1x1024x3 .f32) (x2 : Vec Ideal S1x1024x1 .f32) (m : Fin 1024) (j : Fin 512) :
    k0_pay7 (F := Ideal) (View.ld x0 r0_0) (View.ld x0 r0_1) (View.ld x0 r0_2) (View.ld x1 r0_3) (View.ld x1 r0_4) (View.ld x1 r0_5) (View.ld x2 r0_6) (ix2 m j)
      = bweight x0 x1 x2 m j := by
  rw [pay7_apply, ld_row0, ld_row1, ld_row2, ld_col0, ld_col1, ld_col2, ld_chg]
  rfl

/-- Row 0 of the written block: the x component of the field. -/
theorem row0_eq (x0 : Vec Ideal S1x3x512 .f32) (x1 : Vec Ideal S1x1024x3 .f32) (x2 : Vec Ideal S1x1024x1 .f32) (u' u : Fin 1) (j : Fin 512) :
    k0_pay1 (F := Ideal) (k0_pay8 (F := Ideal) (View.ld x0 r0_0) (View.ld x0 r0_1) (View.ld x0 r0_2) (View.ld x1 r0_3) (View.ld x1 r0_4) (View.ld x1 r0_5) (View.ld x2 r0_6)) (ix3 u' u j)
      = bfield x0 x1 x2 0 j := by
  rw [pay1_apply, pay8_apply]
  refine Finset.sum_congr rfl fun m _ => ?_
  rw [weight_eq, pay4_apply, ld_row0, ld_col0]
  rfl

/-- Row 1: the y component. -/
theorem row1_eq (x0 : Vec Ideal S1x3x512 .f32) (x1 : Vec Ideal S1x1024x3 .f32) (x2 : Vec Ideal S1x1024x1 .f32) (u' u : Fin 1) (j : Fin 512) :
    k0_pay2 (F := Ideal) (k0_pay5 (F := Ideal) (View.ld x0 r0_1) (View.ld x1 r0_4)) (k0_pay7 (F := Ideal) (View.ld x0 r0_0) (View.ld x0 r0_1) (View.ld x0 r0_2) (View.ld x1 r0_3) (View.ld x1 r0_4) (View.ld x1 r0_5) (View.ld x2 r0_6)) (ix3 u' u j)
      = bfield x0 x1 x2 1 j := by
  rw [pay2_apply]
  refine Finset.sum_congr rfl fun m _ => ?_
  rw [weight_eq, pay5_apply, ld_row1, ld_col1]
  rfl

/-- Row 2: the z component. -/
theorem row2_eq (x0 : Vec Ideal S1x3x512 .f32) (x1 : Vec Ideal S1x1024x3 .f32) (x2 : Vec Ideal S1x1024x1 .f32) (u' u : Fin 1) (j : Fin 512) :
    k0_pay3 (F := Ideal) (k0_pay6 (F := Ideal) (View.ld x0 r0_2) (View.ld x1 r0_5)) (k0_pay7 (F := Ideal) (View.ld x0 r0_0) (View.ld x0 r0_1) (View.ld x0 r0_2) (View.ld x1 r0_3) (View.ld x1 r0_4) (View.ld x1 r0_5) (View.ld x2 r0_6)) (ix3 u' u j)
      = bfield x0 x1 x2 2 j := by
  rw [pay3_apply]
  refine Finset.sum_congr rfl fun m _ => ?_
  rw [weight_eq, pay6_apply, ld_row2, ld_col2]
  rfl

/-- The block as one function of its index: at `(·, k, j)` the field's component `k` at lane `j`. -/
def blockFn (x0 : Vec Ideal S1x3x512 .f32) (x1 : Vec Ideal S1x1024x3 .f32) (x2 : Vec Ideal S1x1024x1 .f32) : Vec Ideal S1x3x512 .f32 :=
  fun y => bfield x0 x1 x2 ⟨(y 1).val, (y 1).isLt⟩ ⟨(y 2).val, (y 2).isLt⟩

/-- WHAT THE BODY LEAVES in the output block: its three one-row stores are the three rows of `blockFn`. -/
theorem out_eq (x0 : Vec Ideal S1x3x512 .f32) (x1 : Vec Ideal S1x1024x3 .f32) (x2 : Vec Ideal S1x1024x1 .f32) :
    out0_3 (F := Ideal) x0 x1 x2 = blockFn x0 x1 x2 := by
  funext y
  unfold out0_3
  refine View.canon_apply_of_pieces (Val := Elt Ideal) (blockFn x0 x1 x2) _ ?_ y (cover0_3 _ _ _ y)
  intro p hp
  simp only [List.mem_cons, List.mem_nil_iff, or_false] at hp
  rcases hp with rfl | rfl | rfl
  · intro x
    obtain ⟨u', u, j, rfl⟩ : ∃ (u' u : Fin 1) (j : Fin 512), x = ix3 u' u j := ⟨x 0, x 1, x 2, eq_ix3 x⟩
    refine (row2_eq x0 x1 x2 u' u j).trans ?_
    unfold blockFn
    congr 1 <;> apply Fin.ext
    · show 2 = 2 + 1 * u.val; omega
    · show j.val = 0 + 1 * j.val; omega
  · intro x
    obtain ⟨u', u, j, rfl⟩ : ∃ (u' u : Fin 1) (j : Fin 512), x = ix3 u' u j := ⟨x 0, x 1, x 2, eq_ix3 x⟩
    refine (row1_eq x0 x1 x2 u' u j).trans ?_
    unfold blockFn
    congr 1 <;> apply Fin.ext
    · show 1 = 1 + 1 * u.val; omega
    · show j.val = 0 + 1 * j.val; omega
  · intro x
    obtain ⟨u', u, j, rfl⟩ : ∃ (u' u : Fin 1) (j : Fin 512), x = ix3 u' u j := ⟨x 0, x 1, x 2, eq_ix3 x⟩
    refine (row0_eq x0 x1 x2 u' u j).trans ?_
    unfold blockFn
    congr 1 <;> apply Fin.ext
    · show 0 = 0 + 1 * u.val; omega
    · show j.val = 0 + 1 * j.val; omega

end Cert.KernelIdeal.Block

end
-- ==== Proof.KernelArray.lean ====
/-
  The output array after the region.

  The grid is 8 × 4: point `t` handles batch `t / 4` and the 512 atoms from `(t % 4) · 512`. Its position block is
  rows 0–2 and those 512 lanes of the batch's transposed positions `[8, 3, 2048]`; its charge-position and charge
  blocks are the batch's whole `[1024, 3]` and `[1024, 1]` slices; its output block is the same rows and lanes of
  the output array `[8, 3, 2048]`. So what the point writes back is the restriction to its block of ONE function of
  the three staged arrays, `afield`: at `(b, k, n)` the sum over the charges `mm` of
  `A2 (b, mm, 0) · rsqrt(s)³ · (A0 (b, k, n) - A1 (b, mm, k))`, with `s` the sum of the three squared differences.
  The 32 blocks tile the array — index `(b, k, n)` lies in the block of point `b · 4 + n / 512` — so after the last
  point the array is `afield` everywhere.
-/
import proofs.«107243_j44839458570525_2_alg».proof.Proof.Gen.KernelIdeal.Frame
import proofs.«107243_j44839458570525_2_alg».proof.Proof.KernelBlock
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Arr

open Cert.KernelIdeal Cert.KernelIdeal.Gen Idealize.ShloMosaic Idealize.ShloMosaic.TcCoe Idealize.SL.Sem
open Idealize.ShloMosaic.ValueIdx Cert.KernelIdeal.Block
open Idealize.ShloMosaic.Pipeline (Dat)

/-! ## The field over the arrays the region stages -/

/-- Component `k` of the vector from charge `mm` to atom `n`, off the transposed positions `[8, 3, 2048]` and the charge
    positions `[8, 1024, 3]`. -/
def adiff (A0 : S8x3x2048.Idx → EReal) (A1 : S8x1024x3.Idx → EReal) (b : Fin 8) (mm : Fin 1024) (n : Fin 2048) (k : Fin 3) : EReal :=
  A0 (ix3 b k n) - A1 (ix3 b mm k)

/-- The charge (a column `[8, 1024, 1]`) times the cube of the inverse distance. -/
def aweight (A0 : S8x3x2048.Idx → EReal) (A1 : S8x1024x3.Idx → EReal) (A2 : S8x1024x1.Idx → EReal) (b : Fin 8) (mm : Fin 1024) (n : Fin 2048) : EReal :=
  A2 (ix3 b mm (0 : Fin 1)) * cube (Ideal.rsqrt (sq3 (adiff A0 A1 b mm n 0) (adiff A0 A1 b mm n 1) (adiff A0 A1 b mm n 2)))

/-- The field at `(b, k, n)`. -/
def afieldAt (A0 : S8x3x2048.Idx → EReal) (A1 : S8x1024x3.Idx → EReal) (A2 : S8x1024x1.Idx → EReal) (b : Fin 8) (k : Fin 3) (n : Fin 2048) : EReal :=
  ∑ mm : Fin 1024, aweight A0 A1 A2 b mm n * adiff A0 A1 b mm n k

/-- The output array `[8, 3, 2048]` as one function of the staged arrays. -/
def afield (A0 : S8x3x2048.Idx → EReal) (A1 : S8x1024x3.Idx → EReal) (A2 : S8x1024x1.Idx → EReal) : S8x3x2048.Idx → EReal :=
  fun i => afieldAt A0 A1 A2 ⟨(i 0).val, (i 0).isLt⟩ ⟨(i 1).val, (i 1).isLt⟩ ⟨(i 2).val, (i 2).isLt⟩

/-- Blocks that are the batch `b`'s part of the arrays, the position block starting at atom `n0`, give the array's
    field at atom `n0 + j`. -/
theorem bfield_of_array (A0 : S8x3x2048.Idx → EReal) (A1 : S8x1024x3.Idx → EReal) (A2 : S8x1024x1.Idx → EReal)
    (x0 : Vec Ideal S1x3x512 .f32) (x1 : Vec Ideal S1x1024x3 .f32) (x2 : Vec Ideal S1x1024x1 .f32)
    (b : Fin 8) (n0 : Nat) (hn0 : n0 + 512 ≤ 2048)
    (h0 : ∀ (k : Fin 3) (j : Fin 512), x0 (ix3 (0 : Fin 1) k j) = A0 (ix3 b k ⟨n0 + j.val, by have := j.isLt; omega⟩))
    (h1 : ∀ (mm : Fin 1024) (k : Fin 3), x1 (ix3 (0 : Fin 1) mm k) = A1 (ix3 b mm k))
    (h2 : ∀ mm : Fin 1024, x2 (ix3 (0 : Fin 1) mm (0 : Fin 1)) = A2 (ix3 b mm (0 : Fin 1)))
    (k : Fin 3) (j : Fin 512) :
    bfield x0 x1 x2 k j = afieldAt A0 A1 A2 b k ⟨n0 + j.val, by have := j.isLt; omega⟩ := by
  unfold bfield afieldAt
  refine Finset.sum_congr rfl fun mm _ => ?_
  unfold bweight bdiff aweight adiff
  simp only [h0, h1, h2]

/-- `afield` at an index whose coordinates are `b`, `k`, `n`. -/
theorem afield_apply (A0 : S8x3x2048.Idx → EReal) (A1 : S8x1024x3.Idx → EReal) (A2 : S8x1024x1.Idx → EReal) (i : S8x3x2048.Idx)
    (b : Fin 8) (k : Fin 3) (n : Fin 2048) (h0 : (i 0).val = b.val) (h1 : (i 1).val = k.val) (h2 : (i 2).val = n.val) :
    afield A0 A1 A2 i = afieldAt A0 A1 A2 b k n := by
  unfold afield
  have e0 : (⟨(i 0).val, (i 0).isLt⟩ : Fin 8) = b := Fin.ext h0
  have e1 : (⟨(i 1).val, (i 1).isLt⟩ : Fin 3) = k := Fin.ext h1
  have e2 : (⟨(i 2).val, (i 2).isLt⟩ : Fin 2048) = n := Fin.ext h2
  rw [e0, e1, e2]

/-! ## What a grid point writes back is a block of `afield` -/

variable (m : (ℓ : Loc nD τ sig) → Buf (Elt Ideal) ℓ) (ρ : Dev nD → PrngReg)

/-- The grid is `8 × 4`: point `t` is batch `t / 4`, tile `t % 4`. The position and output windows move with both, the
    charge-position and charge windows with the batch alone (decided over the 32 points). -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = t.val % 4 :=
  (by decide +kernel : ∀ t : Fin grid0.N, _)

theorem t_lt (t : Fin cfg0.N) : t.val < 32 := by
  have h := t.isLt
  have hN : cfg0.N = 32 := N_0
  omega

/-- The position window's block at point `t`: batch `t / 4`, atoms from `(t % 4) · 512`. -/
theorem iblk0_apply (c : Dev nD) (t : Fin cfg0.N) (k : Fin 3) (j : Fin 512) :
    iblk m c 0 t (ix3 (0 : Fin 1) k j)
      = V m c main_v0 (ix3 (⟨t.val / 4, by have := t_lt t; omega⟩ : Fin 8) k (⟨t.val % 4 * 512 + j.val, by have := j.isLt; omega⟩ : Fin 2048)) := by
  obtain ⟨e00, e01, e02, -⟩ := idx_facts t
  show V m c main_v0 (((cfg0.win 0).blk t).view.emb (ix3 (0 : Fin 1) k j)) = _
  refine congrArg (V m c main_v0) (funext fun a => Fin.ext ?_)
  match a with
  | ⟨0, _⟩ => show win0_0.index t (0 : Fin 3) * 1 + 1 * 0 = t.val / 4; omega
  | ⟨1, _⟩ => show win0_0.index t (1 : Fin 3) * 3 + 1 * k.val = k.val; omega
  | ⟨2, _⟩ => show win0_0.index t (2 : Fin 3) * 512 + 1 * j.val = t.val % 4 * 512 + j.val; omega

/-- The charge-position window's block at point `t`: the whole batch `t / 4`. -/
theorem iblk1_apply (c : Dev nD) (t : Fin cfg0.N) (mm : Fin 1024) (k : Fin 3) :
    iblk m c 1 t (ix3 (0 : Fin 1) mm k) = V m c main_arg2 (ix3 (⟨t.val / 4, by have := t_lt t; omega⟩ : Fin 8) mm k) := by
  obtain ⟨-, -, -, e10, e11, e12, -⟩ := idx_facts t
  show V m c main_arg2 (((cfg0.win 1).blk t).view.emb (ix3 (0 : Fin 1) mm k)) = _
  refine congrArg (V m c main_arg2) (funext fun a => Fin.ext ?_)
  match a with
  | ⟨0, _⟩ => show win0_1.index t (0 : Fin 3) * 1 + 1 * 0 = t.val / 4; omega
  | ⟨1, _⟩ => show win0_1.index t (1 : Fin 3) * 1024 + 1 * mm.val = mm.val; omega
  | ⟨2, _⟩ => show win0_1.index t (2 : Fin 3) * 3 + 1 * k.val = k.val; omega

/-- The charge window's block at point `t`: the whole batch `t / 4`. -/
theorem iblk2_apply (c : Dev nD) (t : Fin cfg0.N) (mm : Fin 1024) :
    iblk m c 2 t (ix3 (0 : Fin 1) mm (0 : Fin 1)) = V m c main_v1 (ix3 (⟨t.val / 4, by have := t_lt t; omega⟩ : Fin 8) mm (0 : Fin 1)) := by
  obtain ⟨-, -, -, -, -, -, e20, e21, e22, -⟩ := idx_facts t
  show V m c main_v1 (((cfg0.win 2).blk t).view.emb (ix3 (0 : Fin 1) mm (0 : Fin 1))) = _
  refine congrArg (V m c main_v1) (funext fun a => Fin.ext ?_)
  match a with
  | ⟨0, _⟩ => show win0_2.index t (0 : Fin 3) * 1 + 1 * 0 = t.val / 4; omega
  | ⟨1, _⟩ => show win0_2.index t (1 : Fin 3) * 1024 + 1 * mm.val = mm.val; omega
  | ⟨2, _⟩ => show win0_2.index t (2 : Fin 3) * 1 + 1 * 0 = 0; omega

/-- What the body leaves in the output window at point `t`, as the block function of the three input blocks. -/
theorem after_eq (c : Dev nD) (t : Fin cfg0.N) :
    (dats m 0 c).after 3 t = blockFn (iblk m c 0 t) (iblk m c 1 t) (iblk m c 2 t) :=
  (after0_3 m c t).trans (out_eq (iblk m c 0 t) (iblk m c 1 t) (iblk m c 2 t))

/-- That block function at `(·, k, j)`: the arrays' field at batch `t / 4`, component `k`, atom `(t % 4) · 512 + j`. -/
theorem block_at (c : Dev nD) (t : Fin cfg0.N) (k : Fin 3) (j : Fin 512) :
    bfield (iblk m c 0 t) (iblk m c 1 t) (iblk m c 2 t) k j
      = afieldAt (V m c main_v0) (V m c main_arg2) (V m c main_v1) (⟨t.val / 4, by have := t_lt t; omega⟩ : Fin 8) k
          (⟨t.val % 4 * 512 + j.val, by have := j.isLt; omega⟩ : Fin 2048) :=
  bfield_of_array (V m c main_v0) (V m c main_arg2) (V m c main_v1) (iblk m c 0 t) (iblk m c 1 t) (iblk m c 2 t)
    ⟨t.val / 4, by have := t_lt t; omega⟩ (t.val % 4 * 512) (by omega) (iblk0_apply m c t) (iblk1_apply m c t) (iblk2_apply m c t) k j

/-- WHAT POINT `t` WRITES BACK is block `t` of `afield` of the arrays as the region finds them. -/
theorem flushed_eq (c : Dev nD) (t : Fin cfg0.N) :
    (dats m 0 c).flushed 3 t = ((cfg0.win 3).blk t).view.read (Elt Ideal) (afield (V m c main_v0) (V m c main_arg2) (V m c main_v1)) := by
  show (cfg0.win 3).cut (grid0.coords t) ((dats m 0 c).after 3 t) = _
  rw [after_eq]
  obtain ⟨-, -, -, -, -, -, -, -, -, e30, e31, e32⟩ := idx_facts t
  have ht := t_lt t
  funext y
  show blockFn (iblk m c 0 t) (iblk m c 1 t) (iblk m c 2 t) y
      = afield (V m c main_v0) (V m c main_arg2) (V m c main_v1) (((cfg0.win 3).blk t).view.emb y)
  have hy0 : (y 0).val < 1 := (y 0).isLt
  have hy1 : (y 1).val < 3 := (y 1).isLt
  have hy2 : (y 2).val < 512 := (y 2).isLt
  refine (block_at m c t ⟨(y 1).val, hy1⟩ ⟨(y 2).val, hy2⟩).trans ?_
  refine (afield_apply (V m c main_v0) (V m c main_arg2) (V m c main_v1) (((cfg0.win 3).blk t).view.emb y)
    ⟨t.val / 4, by omega⟩ ⟨(y 1).val, hy1⟩ ⟨t.val % 4 * 512 + (y 2).val, by omega⟩ ?_ ?_ ?_).symm
  · show win0_3.index t (0 : Fin 3) * 1 + 1 * (y 0).val = t.val / 4
    omega
  · show win0_3.index t (1 : Fin 3) * 3 + 1 * (y 1).val = (y 1).val
    omega
  · show win0_3.index t (2 : Fin 3) * 512 + 1 * (y 2).val = t.val % 4 * 512 + (y 2).val
    omega

/-! ## The output array after the run -/

/-- An index of the output array is in point `t`'s block iff each coordinate is in the block's range on its axis. -/
theorem mem_blk (t : Fin cfg0.N) (i : S8x3x2048.Idx) :
    i ∈ ((cfg0.win 3).blk t).view.set ↔ ∀ a : Fin 3, win0_3.index t a * S1x3x512.size a ≤ (i a).val ∧ (i a).val < win0_3.index t a * S1x3x512.size a + S1x3x512.size a := by
  show i ∈ ((View.whole main_v2).slice (win0_3.rect t)).set ↔ _
  rw [View.set_slice_whole, Rect.mem_set_unit]
  exact Iff.rfl

/-- Every index `(b, k, n)` of the output array is in the block of the point of batch `b` and tile `n / 512`. -/
theorem cover (i : S8x3x2048.Idx) : ∃ t : Fin cfg0.N, (cfg0.win 3).flush t = true ∧ i ∈ ((cfg0.win 3).blk t).view.set := by
  have hi0 : (i 0).val < 8 := (i 0).isLt
  have hi1 : (i 1).val < 3 := (i 1).isLt
  have hi2 : (i 2).val < 2048 := (i 2).isLt
  have hN : cfg0.N = 32 := N_0
  have hlt : (i 0).val * 4 + (i 2).val / 512 < cfg0.N := by omega
  refine ⟨⟨(i 0).val * 4 + (i 2).val / 512, hlt⟩, flush0_3 _, ?_⟩
  obtain ⟨-, -, -, -, -, -, -, -, -, e30, e31, e32⟩ := idx_facts ⟨(i 0).val * 4 + (i 2).val / 512, hlt⟩
  rw [mem_blk]
  intro a
  match a with
  | ⟨0, _⟩ =>
    show win0_3.index ⟨(i 0).val * 4 + (i 2).val / 512, hlt⟩ (0 : Fin 3) * 1 ≤ (i 0).val ∧ (i 0).val < win0_3.index ⟨(i 0).val * 4 + (i 2).val / 512, hlt⟩ (0 : Fin 3) * 1 + 1
    simp only at e30
    omega
  | ⟨1, _⟩ =>
    show win0_3.index ⟨(i 0).val * 4 + (i 2).val / 512, hlt⟩ (1 : Fin 3) * 3 ≤ (i 1).val ∧ (i 1).val < win0_3.index ⟨(i 0).val * 4 + (i 2).val / 512, hlt⟩ (1 : Fin 3) * 3 + 3
    omega
  | ⟨2, _⟩ =>
    show win0_3.index ⟨(i 0).val * 4 + (i 2).val / 512, hlt⟩ (2 : Fin 3) * 512 ≤ (i 2).val ∧ (i 2).val < win0_3.index ⟨(i 0).val * 4 + (i 2).val / 512, hlt⟩ (2 : Fin 3) * 512 + 512
    simp only at e32
    omega

/-- THE OUTPUT ARRAY after the run is `afield` of the arrays as the region finds them. -/
theorem final (c : Dev nD) :
    (dats m 0 c).arrAt 3 cfg0.N = afield (V m c main_v0) (V m c main_arg2) (V m c main_v1) :=
  (dats m 0 c).arrAt_eq_of_cover 3 _ (fun t _ => flushed_eq m c t) cover

end Cert.KernelIdeal.Arr

end
-- ==== Proof.KernelRun.lean ====
/-
  The kernel's program computes the field.

  Around the region the host transposes the positions `[8, 2048, 3]` to `[8, 3, 2048]` and gives the charges
  `[8, 1024]` a trailing unit axis; after it, it transposes the output array `[8, 3, 2048]` back to `[8, 2048, 3]`.
  Read at an index, the transposed positions at `(b, k, n)` are the positions at `(b, n, k)` and the charge column at
  `(b, mm, 0)` is the charge `(b, mm)`; so the output array's function of the staged arrays, at `(b, k, n)`, is the
  specification's field of the three arguments at `(b, n, k)`, and the final transpose puts it at `(b, n, k)`.
  Nothing here needs the entries to be real or the distances positive: the kernel's result is the field, written the
  kernel's way, on all extended reals.
-/
import proofs.«107243_j44839458570525_2_alg».proof.Proof.Gen.KernelIdeal.Frame
import proofs.«107243_j44839458570525_2_alg».proof.Proof.KernelArray
import proofs.«107243_j44839458570525_2_alg».proof.Proof.FieldSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.ValueIdx Cert.KernelIdeal.Block Cert.KernelIdeal.Arr Idealize.ShloMosaic.StableHlo
open Idealize.ShloMosaic.Pipeline (Dat)

/-- The charges `[8, 1024]` given a trailing unit axis: at `(b, mm, 0)` the charge `(b, mm)`. -/
theorem chargeColumn_apply (Q : S8x1024.Idx → EReal) (b : Fin 8) (mm : Fin 1024) (z : Fin 1) :
    broadcastInDim S8x1024x1 ![0, 1] bcast_S8x1024_S8x1024x1_0_1 Q (ix3 b mm z) = Q (ix2 b mm) :=
  broadcastInDim_apply _ bcast_S8x1024_S8x1024x1_0_1 Q (ix3 b mm z) (ix2 b mm) (fun a => match a with
    | ⟨0, _⟩ => by show b.val = if (8 : Nat) = 1 then 0 else b.val; rw [if_neg (by decide)]
    | ⟨1, _⟩ => by show mm.val = if (1024 : Nat) = 1 then 0 else mm.val; rw [if_neg (by decide)])

/-- Over the transposed positions and the charge column, the staged arrays' field is the specification's: at
    `(b, k, n)` the sum over the charges of weight times the difference's component `k`. -/
theorem afieldAt_args (P : S8x2048x3.Idx → EReal) (Q : S8x1024.Idx → EReal) (C : S8x1024x3.Idx → EReal)
    (b : Fin 8) (k : Fin 3) (n : Fin 2048) :
    afieldAt (transpose S8x3x2048 [0, 2, 1] P transposes_S8x2048x3_S8x3x2048_0_2_1) C
        (broadcastInDim S8x1024x1 ![0, 1] bcast_S8x1024_S8x1024x1_0_1 Q) b k n
      = ∑ mm : Fin 1024, Cert.Field.weight P Q C b mm n * Cert.Field.diff P C b mm n k := by
  unfold afieldAt
  refine Finset.sum_congr rfl fun mm _ => ?_
  unfold aweight adiff Cert.Field.weight Cert.Field.dist2 Cert.Field.diff
  rw [chargeColumn_apply, transpose_ix3_021_apply, transpose_ix3_021_apply, transpose_ix3_021_apply, transpose_ix3_021_apply]

variable (m : (ℓ : Loc nD τ sig) → Buf (Elt Ideal) ℓ) (ρ : Dev nD → PrngReg)

/-- The region finds the positions transposed: the host line before it. -/
theorem V_main_v0 (c : Dev nD) :
    (V m c main_v0 : S8x3x2048.Idx → EReal)
      = transpose S8x3x2048 [0, 2, 1] (m ((c : Thread nD τ).loc main_arg0)) transposes_S8x2048x3_S8x3x2048_0_2_1 := by
  show StableHlo.after hostOps0 (fun b => m (c, b)) (Proc.devRef .tc main_v0) = _
  after_results

/-- The region finds the charges as a column: the other host line before it. -/
theorem V_main_v1 (c : Dev nD) :
    (V m c main_v1 : S8x1024x1.Idx → EReal)
      = broadcastInDim S8x1024x1 ![0, 1] bcast_S8x1024_S8x1024x1_0_1 (m ((c : Thread nD τ).loc main_arg1)) := by
  show StableHlo.after hostOps0 (fun b => m (c, b)) (Proc.devRef .tc main_v1) = _
  after_results

/-- The result buffer after the host line that follows the region: the output array transposed back. -/
theorem tail_eq (c : Dev nD) :
    (Pipeline.afterTail₀ cfgs (dats m) 0 (V0 m) [hostOps1] c main_v3 : S8x2048x3.Idx → EReal)
      = transpose S8x2048x3 [0, 2, 1] ((dats m 0 c).arrAt 3 cfg0.N) transposes_S8x3x2048_S8x2048x3_0_2_1 := by
  unfold Pipeline.afterTail₀
  show StableHlo.after hostOps1 _ (Proc.devRef .tc main_v3) = _
  after_results
  exact congrArg (fun x => transpose S8x2048x3 [0, 2, 1] x transposes_S8x3x2048_S8x2048x3_0_2_1)
    (Pipeline.withArrays_arr spec0 launch0.win.arr_inj c _ _ 3)

/-- THE RESULT is the field of the three argument arrays. -/
theorem result_eq (c : Dev nD) :
    (Pipeline.afterTail₀ cfgs (dats m) 0 (V0 m) [hostOps1] c main_v3 : S8x2048x3.Idx → EReal)
      = Cert.Field.field (m ((c : Thread nD τ).loc main_arg0)) (m ((c : Thread nD τ).loc main_arg1)) (m ((c : Thread nD τ).loc main_arg2)) := by
  rw [tail_eq, final, V_main_v0, V_main_v1, V_main_arg2]
  funext i
  obtain ⟨b, n, k, rfl⟩ : ∃ (b : Fin 8) (n : Fin 2048) (k : Fin 3), i = ix3 b n k := ⟨i 0, i 1, i 2, eq_ix3 i⟩
  rw [transpose_ix3_021_apply]
  refine (afield_apply _ _ _ (ix3 b k n) b k n rfl rfl rfl).trans ?_
  exact afieldAt_args _ _ _ b k n

/-- THE RUN: every weakly fair execution terminates with the result buffer at the field of the arguments and the
    arguments unchanged. -/
theorem run : θ_run defs (onTc (τ := τ) (main (F := Ideal))) ⟨m, fun _ => 0, ρ⟩ fun r => ∀ c : Dev nD,
      r.2.mem ((c.tc : Thread nD τ).loc main_v3)
        = Cert.Field.field (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Run

end
-- ==== Proof.lean ====
/-
  The certificate of the point-charge field kernel against its reference.

  Both programs compute, for every batch `b`, atom `n` and component `c`, the sum over the charges `m` of the
  charge times the vector from the charge to the atom, divided by the cube of their distance. The kernel multiplies
  by the cube of the inverse square root of the squared distance; the reference divides by the cube of the square
  root. On real entries at a positive squared distance both terms are the real number `Q · d / (√s)³`; where an atom
  sits on a charge they differ on the extended reals (the product is `0`, the quotient `0 / 0`), so the precondition
  asks, beside real entries, that every squared distance be positive.

  The kernel's run ends with the result at the field of the arguments (Proof/KernelRun.lean, over the block a grid point
  writes, Proof/KernelBlock.lean, and the output array after the region, Proof/KernelArray.lean); the reference's run,
  read one operation at a time, ends at the same field once the precondition is read back (Proof/RefField.lean,
  Proof/PreFacts.lean); the field and the law joining the two forms of a term are Proof/FieldSpec.lean. The ideal
  pass rewrote nothing, so the idealized kernel is the kernel's own text read on the extended reals.
-/
import proofs.«107243_j44839458570525_2_alg».proof.Defs
import proofs.«107243_j44839458570525_2_alg».proof.Proof.Gen.Kernel
import proofs.«107243_j44839458570525_2_alg».proof.Proof.Gen.Kernel.Skeleton
import proofs.«107243_j44839458570525_2_alg».proof.Proof.Gen.Kernel.Launch
import proofs.«107243_j44839458570525_2_alg».proof.Proof.Gen.Kernel.Points
import proofs.«107243_j44839458570525_2_alg».proof.Proof.Gen.Kernel.Frame
import proofs.«107243_j44839458570525_2_alg».proof.Proof.Gen.KernelIdeal
import proofs.«107243_j44839458570525_2_alg».proof.Proof.Gen.KernelIdeal.Skeleton
import proofs.«107243_j44839458570525_2_alg».proof.Proof.Gen.KernelIdeal.Launch
import proofs.«107243_j44839458570525_2_alg».proof.Proof.Gen.KernelIdeal.Points
import proofs.«107243_j44839458570525_2_alg».proof.Proof.Gen.KernelIdeal.Frame
import proofs.«107243_j44839458570525_2_alg».proof.Proof.Gen.ReferenceIdeal
import proofs.«107243_j44839458570525_2_alg».proof.Proof.Gen.ReferenceIdeal.Read
import proofs.«107243_j44839458570525_2_alg».proof.Proof.Gen.Pre_finite_inputs
import proofs.«107243_j44839458570525_2_alg».proof.Proof.FieldSpec
import proofs.«107243_j44839458570525_2_alg».proof.Proof.PreFacts
import proofs.«107243_j44839458570525_2_alg».proof.Proof.RefField
import proofs.«107243_j44839458570525_2_alg».proof.Proof.KernelRun
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on the arguments, of which the precondition holds, both programs end with the result
    at the field of the arguments: the kernel always, the reference because every entry is real and no atom sits on
    a charge. -/
theorem algebraic : Cert.algebraic_KernelIdeal_ReferenceIdeal := by
  intro m ρ m' ρ' hpre hagree
  refine ⟨fun c => Cert.Field.field (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2]
  exact Cert.RefField.ref_is_field _ _ _ (Cert.PreFacts.good_of_pre _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
